-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 89
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S1x40, .f32⟩
  | .hbm, ⟨88, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x40, .f32⟩
  | .local _ .vmem, ⟨23, _⟩ => ⟨S1x40, .f32⟩
  | .local _ .vmem, ⟨24, _⟩ => ⟨S10000x40, .f32⟩
  | .local _ .vmem, ⟨25, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x40.size a ≤ S100000x40.size a
  hwx4_3 : ∀ i : grid4.Coords, EltTy.bits .f32 = 32 ∨ (Rect.block (s := S100000x40) S10000x40.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S10000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x40, .f32⟩
  | .hbm, ⟨96, _⟩ => ⟨S1x40, .f32⟩
  | .hbm, ⟨97, _⟩ => ⟨S100000x40, .f32⟩
  | .hbm, ⟨98, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Glue.lean ====
/-
  The graph side of the network, which both programs compute with the same host operations: the edge lists with a self
  loop added for every node, the symmetric normalisation d(src) · d(dst) of every edge, with d = deg^(-1/2) where the
  in-degree is positive and 0 elsewhere, and the aggregation of a node table over the edges: gather each edge's source row,
  scale it by the edge's normalisation, and add it into the edge's target row. Nothing here is opened by the proof: the
  two programs apply these same functions, and only what goes into them is compared.
-/
import proofs.«146401_j32332513804701_1_alg».proof.Proof.Gen.ReferenceIdeal
import Idealize.ShloMosaic.PureOps.Ideal

noncomputable section

namespace Cert.Glue

open Idealize.ShloMosaic Cert.ReferenceIdeal Cert.ReferenceIdeal.Gen

/-- The edges' source nodes followed by every node once (the self loops). -/
def srcOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' target nodes followed by every node once. -/
def dstOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A list of node numbers as the index column a gather reads rows by (a negative number counted from the end). -/
def rowsOf (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Every node's in-degree, from the list of target nodes (self loops included): one is added per listed edge. -/
def degWith (d : IVec S1700000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Whether each degree is positive. -/
def positive (deg : FVec Ideal S100000 .f32) : IVec S100000 1 :=
  cmpf (F := Ideal) .ogt deg (broadcastInDim S100000 ![] bcast_S_S100000 (constant S_ .f32 0x00000000#32))

/-- The chosen value where the test holds, the given scalar elsewhere. -/
def whereElse (p : IVec S100000 1) (v : FVec Ideal S100000 .f32) (z : FVec Ideal S_ .f32) : FVec Ideal S100000 .f32 :=
  select p v (broadcastInDim S100000 ![] bcast_S_S100000 (id z))

/-- deg^(-1/2) where the degree is positive, 0 elsewhere. -/
def scaleOf (e : IVec S2x1600000 32) : FVec Ideal S100000 .f32 :=
  whereElse (positive (degWith (dstOf e))) (Host.rsqrt (degWith (dstOf e))) (constant S_ .f32 0x00000000#32)

/-- Every edge's normalisation from the nodes' scales: the scale of its source times the scale of its target. -/
def normWith (sc : FVec Ideal S100000 .f32) (s d : IVec S1700000 32) : FVec Ideal S1700000 .f32 :=
  mulf (Host.gather gather_S100000_S1700000x1_S1700000_n_0_n_n_0_1_1 sc (rowsOf s)) (Host.gather gather_S100000_S1700000x1_S1700000_n_0_n_n_0_1_1 sc (rowsOf d))

/-- Every edge's normalisation, from the edge array. -/
def normOf (e : IVec S2x1600000 32) : FVec Ideal S1700000 .f32 :=
  normWith (scaleOf e) (srcOf e) (dstOf e)

/-- The aggregation of a node table over given edge lists and edge weights. -/
def aggrWith (xw : FVec Ideal S100000x128 .f32) (s d : IVec S1700000 32) (n : FVec Ideal S1700000 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 xw (rowsOf s)) (broadcastInDim S1700000x128 ![0, 1] bcast_S1700000x1_S1700000x128_0_1 (broadcastInDim S1700000x1 ![0] bcast_S1700000_S1700000x1_0 n)))

/-- The aggregation of a node table over the graph the edge array describes. -/
def aggr (xw : FVec Ideal S100000x128 .f32) (e : IVec S2x1600000 32) : FVec Ideal S100000x128 .f32 :=
  aggrWith xw (srcOf e) (dstOf e) (normOf e)

end Cert.Glue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«146401_j32332513804701_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibRowEpilogue.lean ====
/-
  Adding one row to every row of a matrix, and the entrywise maximum with zero, as functions of whole arrays.

  `addRow h b` adds the one row `b` (an array [1, d]) to every row of `h`; `relu h` takes the maximum of every
  entry with zero. `reluAddRow h b` is `relu (addRow h b)`: a bias followed by a rectifier. Generic in the
  extents n and d and stated for any float interpretation; each comes with its value at an index.
-/
import Idealize.ShloMosaic.PureOps.Vector
import Idealize.ShloMosaic.Lib.ValueIdx

noncomputable section

namespace Cert.LibRowEpilogue

open Idealize.ShloMosaic Idealize.ShloMosaic.ValueIdx

variable {F : FTy → Type} [FloatOps F]

/-- The row `b` added to every row of `h`. -/
def addRow {n d : Nat} (h : (⟨2, ![n, d]⟩ : Shape).Idx → F .f32) (b : (⟨2, ![1, d]⟩ : Shape).Idx → F .f32) :
    (⟨2, ![n, d]⟩ : Shape).Idx → F .f32 :=
  fun i => FloatOps.addf (h i) (b (ix2 (0 : Fin 1) (i 1)))

theorem addRow_apply {n d : Nat} (h : (⟨2, ![n, d]⟩ : Shape).Idx → F .f32) (b : (⟨2, ![1, d]⟩ : Shape).Idx → F .f32)
    (p : Fin n) (q : Fin d) : addRow h b (ix2 p q) = FloatOps.addf (h (ix2 p q)) (b (ix2 (0 : Fin 1) q)) := rfl

theorem addRow_at {n d : Nat} (h : (⟨2, ![n, d]⟩ : Shape).Idx → F .f32) (b : (⟨2, ![1, d]⟩ : Shape).Idx → F .f32)
    (i : (⟨2, ![n, d]⟩ : Shape).Idx) : addRow h b i = FloatOps.addf (h i) (b (ix2 (0 : Fin 1) (i 1))) := rfl

/-- Every entry's maximum with zero. -/
def relu {s : Shape} (h : s.Idx → F .f32) : s.Idx → F .f32 :=
  fun i => FloatOps.maximumf (h i) (FloatOps.ofBits .f32 0x00000000#32)

theorem relu_apply {s : Shape} (h : s.Idx → F .f32) (i : s.Idx) :
    relu h i = FloatOps.maximumf (h i) (FloatOps.ofBits .f32 0x00000000#32) := rfl

/-- The first layer's epilogue: the bias row added to every row, then every entry's maximum with zero. -/
def reluAddRow {n d : Nat} (h : (⟨2, ![n, d]⟩ : Shape).Idx → F .f32) (b : (⟨2, ![1, d]⟩ : Shape).Idx → F .f32) :
    (⟨2, ![n, d]⟩ : Shape).Idx → F .f32 := relu (addRow h b)

theorem reluAddRow_at {n d : Nat} (h : (⟨2, ![n, d]⟩ : Shape).Idx → F .f32) (b : (⟨2, ![1, d]⟩ : Shape).Idx → F .f32)
    (i : (⟨2, ![n, d]⟩ : Shape).Idx) :
    reluAddRow h b i = FloatOps.maximumf (FloatOps.addf (h i) (b (ix2 (0 : Fin 1) (i 1)))) (FloatOps.ofBits .f32 0x00000000#32) := rfl

end Cert.LibRowEpilogue

end
-- ==== Proof.Net.lean ====
/-
  The network as one function of its eight arguments, over the extended reals.

  A layer multiplies the node table by its weight matrix, aggregates the product over the graph, adds the bias row to
  every row and cuts every entry at zero; the network is two layers followed by one more product with a bias row. The
  matrix product is the entry-by-entry sum of LibDotGeneralPlain, the bias and the cut are LibRowEpilogue's, and the
  aggregation is the shared host function of Glue. Both programs are shown to end with this function of their arguments.
-/
import proofs.«146401_j32332513804701_1_alg».proof.Proof.Glue
import proofs.«146401_j32332513804701_1_alg».proof.Proof.LibDotGeneralPlain
import proofs.«146401_j32332513804701_1_alg».proof.Proof.LibRowEpilogue

noncomputable section

namespace Cert.Net

open Idealize.ShloMosaic Cert.ReferenceIdeal Cert.Glue Cert.LibDotGeneralPlain Cert.LibRowEpilogue

/-- A bias vector as the one row that is added to every row of a matrix. -/
def rowOf128 (b : FVec Ideal S128 .f32) : FVec Ideal S1x128 .f32 := shapeCast S1x128 b rfl
def rowOf40 (b : FVec Ideal S40 .f32) : FVec Ideal S1x40 .f32 := shapeCast S1x40 b rfl

/-- One graph-convolution layer: max(aggregate(x · W) + b, 0). -/
def layer (x : FVec Ideal S100000x128 .f32) (W : FVec Ideal S128x128 .f32) (b : FVec Ideal S128 .f32) (e : IVec S2x1600000 32) :
    FVec Ideal S100000x128 .f32 :=
  reluAddRow (F := Ideal) (n := 100000) (d := 128) (aggr (matProd (M := 100000) (K := 128) (N := 128) x W) e) (rowOf128 b)

/-- Two layers and the final product with its bias. -/
def net (x : FVec Ideal S100000x128 .f32) (e : IVec S2x1600000 32) (W1 : FVec Ideal S128x128 .f32) (b1 : FVec Ideal S128 .f32)
    (W2 : FVec Ideal S128x128 .f32) (b2 : FVec Ideal S128 .f32) (Wl : FVec Ideal S128x40 .f32) (bl : FVec Ideal S40 .f32) :
    FVec Ideal S100000x40 .f32 :=
  addRow (F := Ideal) (n := 100000) (d := 40) (matProd (M := 100000) (K := 128) (N := 40) (layer (layer x W1 b1 e) W2 b2 e) Wl) (rowOf40 bl)

end Cert.Net

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibRowEpilogueHost.lean ====
/-
  A bias row and a rectifier as host operations write them.

  A host program adds a bias by placing the bias vector [d] as a row [1, d] (broadcast_in_dim along axis 1) and spreading that
  row over the n rows (broadcast_in_dim along both axes); another reshapes the bias vector to the row [1, d] and adds that row to
  every row (LibRowEpilogue's addRow). Both rows hold the vector's entry q in
  column q, so the two sums are one array. The maximum with a scalar zero spread over the whole shape is the entrywise
  maximum with zero (LibRowEpilogue's relu). Generic in n, d and the shape, the axis maps passed with their values; stated for
  any float interpretation. Imports LibRowEpilogue.lean and LibHostBroadcast.lean, which have to be copied beside it.
-/
import proofs.«146401_j32332513804701_1_alg».proof.Proof.LibRowEpilogue
import proofs.«146401_j32332513804701_1_alg».proof.Proof.LibHostBroadcast
import Idealize.ShloMosaic.Lib.ValueLayout

noncomputable section

namespace Cert.LibRowEpilogueHost

open Idealize.ShloMosaic Idealize.ShloMosaic.ValueIdx Cert.LibRowEpilogue Cert.LibHostBroadcast

variable {F : FTy → Type} [FloatOps F]

/-- Adding the reshaped bias row to every row is adding the bias vector placed as a row and spread over the rows. -/
theorem addRow_reshape {n d : Nat} (h : (⟨2, ![n, d]⟩ : Shape).Idx → F .f32) (b : (⟨1, ![d]⟩ : Shape).Idx → F .f32)
    (hs : (⟨1, ![d]⟩ : Shape).ShapeCasts ⟨2, ![1, d]⟩)
    (dims1 : Fin (⟨1, ![d]⟩ : Shape).rank → Fin (⟨2, ![1, d]⟩ : Shape).rank)
    (hd1 : dims1 ⟨0, Nat.one_pos⟩ = ⟨1, Nat.lt_succ_self 1⟩)
    (h1 : (⟨1, ![d]⟩ : Shape).BroadcastsInDim ⟨2, ![1, d]⟩ dims1)
    (dims2 : Fin (⟨2, ![1, d]⟩ : Shape).rank → Fin (⟨2, ![n, d]⟩ : Shape).rank)
    (hd2 : dims2 ⟨1, Nat.lt_succ_self 1⟩ = ⟨1, Nat.lt_succ_self 1⟩)
    (h2 : (⟨2, ![1, d]⟩ : Shape).BroadcastsInDim ⟨2, ![n, d]⟩ dims2) :
    addRow h (shapeCast ⟨2, ![1, d]⟩ b hs)
      = addf (F := F) h (broadcastInDim ⟨2, ![n, d]⟩ dims2 h2 (broadcastInDim ⟨2, ![1, d]⟩ dims1 h1 b)) := by
  funext i
  obtain ⟨p, q, rfl⟩ : ∃ (p : Fin n) (q : Fin d), i = ix2 p q := ⟨i 0, i 1, eq_ix2 i⟩
  show FloatOps.addf (h (ix2 p q)) (shapeCast ⟨2, ![1, d]⟩ b hs (ix2 (0 : Fin 1) q))
    = FloatOps.addf (h (ix2 p q)) (broadcastInDim ⟨2, ![n, d]⟩ dims2 h2 (broadcastInDim ⟨2, ![1, d]⟩ dims1 h1 b) (ix2 p q))
  rw [shapeCast_a_1a_apply, bcast_1b_ab_apply dims2 hd2, bcast_b_1b_apply dims1 hd1]

/-- The entrywise maximum with zero is the maximum with a zero spread over the whole shape. -/
theorem relu_eq {s : Shape} (h : s.Idx → F .f32) (dims : Fin (⟨0, ![]⟩ : Shape).rank → Fin s.rank)
    (hb : (⟨0, ![]⟩ : Shape).BroadcastsInDim s dims) :
    relu h = maximumf (F := F) h (broadcastInDim s dims hb (constant (F := F) ⟨0, ![]⟩ .f32 0x00000000#32)) := by
  funext i
  show _ = FloatOps.maximumf (h i) (broadcastInDim s dims hb (constant (F := F) ⟨0, ![]⟩ .f32 0x00000000#32) i)
  rw [bcast_scalar_apply]
  rfl

end Cert.LibRowEpilogueHost

end
-- ==== Proof.RefNet.lean ====
/-
  The reference's result is the network function of its arguments.

  The reference's run ends with its result buffer at the composed term of its 91 host operations. Written with the shared
  graph functions that term is two layers max(aggregate(dot_general(x, W)) + broadcast(b), 0) followed by
  dot_general(·, Wl) + broadcast(bl). A host dot_general with plain dimension numbers is the entry-by-entry sum of
  products; adding a bias vector placed as a row and spread over the rows is adding that row to every row; the maximum with
  a zero spread over the array is the cut at zero. So the term is the network function of Net, layer by layer.
-/
import proofs.«146401_j32332513804701_1_alg».proof.Proof.RefRun
import proofs.«146401_j32332513804701_1_alg».proof.Proof.Net
import proofs.«146401_j32332513804701_1_alg».proof.Proof.LibRowEpilogueHost

set_option maxRecDepth 16384

noncomputable section

namespace Cert.ReferenceIdeal.RefNet

open Idealize.ShloMosaic Idealize.ShloMosaic.TcCoe Idealize.SL.Sem
open Cert.ReferenceIdeal Cert.ReferenceIdeal.Gen Cert.Glue Cert.Net
open Cert.LibDotGeneralPlain Cert.LibRowEpilogue Cert.LibRowEpilogueHost

/-- One layer as the reference's host operations write it. -/
def hostLayer (x : FVec Ideal S100000x128 .f32) (W : FVec Ideal S128x128 .f32) (b : FVec Ideal S128 .f32) (e : IVec S2x1600000 32) :
    FVec Ideal S100000x128 .f32 :=
  maximumf (addf (aggr (Host.dotGeneral dot_S100000x128_S128x128_S100000x128_1_0_0_1_n_n none x W) e) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The whole network as the reference's host operations write it. -/
def hostNet (x : FVec Ideal S100000x128 .f32) (e : IVec S2x1600000 32) (W1 : FVec Ideal S128x128 .f32) (b1 : FVec Ideal S128 .f32)
    (W2 : FVec Ideal S128x128 .f32) (b2 : FVec Ideal S128 .f32) (Wl : FVec Ideal S128x40 .f32) (bl : FVec Ideal S40 .f32) :
    FVec Ideal S100000x40 .f32 :=
  addf (Host.dotGeneral dot_S100000x128_S128x40_S100000x40_1_0_0_1_n_n none (hostLayer (hostLayer x W1 b1 e) W2 b2 e) Wl) (broadcastInDim S100000x40 ![0, 1] bcast_S1x40_S100000x40_0_1 (broadcastInDim S1x40 ![1] bcast_S40_S1x40_1 bl))

/-- The run's term is that composition: the same operations on the same operands, the shared pieces named. -/
theorem term_eq (m : (ℓ : Loc nD τ sig) → Buf (Elt Ideal) ℓ) (c : Dev nD) :
    ValueP.res_main_v70 (F := Ideal) m c
      = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold ValueP.res_main_v70
  rfl

/-- A layer as the host writes it is the layer of the network function. -/
theorem hostLayer_eq (x : FVec Ideal S100000x128 .f32) (W : FVec Ideal S128x128 .f32) (b : FVec Ideal S128 .f32) (e : IVec S2x1600000 32) :
    hostLayer x W b e = layer x W b e := by
  unfold hostLayer layer reluAddRow rowOf128
  rw [relu_eq (F := Ideal) _ ![] bcast_S_S100000x128,
    addRow_reshape (F := Ideal) (n := 100000) (d := 128) _ b rfl ![1] rfl bcast_S128_S1x128_1 ![0, 1] rfl bcast_S1x128_S100000x128_0_1,
    ← dotGeneral_plain_eq (M := 100000) (K := 128) (N := 128) dot_S100000x128_S128x128_S100000x128_1_0_0_1_n_n rfl none .single x W]

/-- The network as the host writes it is the network function. -/
theorem hostNet_eq (x : FVec Ideal S100000x128 .f32) (e : IVec S2x1600000 32) (W1 : FVec Ideal S128x128 .f32) (b1 : FVec Ideal S128 .f32)
    (W2 : FVec Ideal S128x128 .f32) (b2 : FVec Ideal S128 .f32) (Wl : FVec Ideal S128x40 .f32) (bl : FVec Ideal S40 .f32) :
    hostNet x e W1 b1 W2 b2 Wl bl = net x e W1 b1 W2 b2 Wl bl := by
  unfold hostNet net rowOf40
  rw [hostLayer_eq, hostLayer_eq,
    addRow_reshape (F := Ideal) (n := 100000) (d := 40) _ bl rfl ![1] rfl bcast_S40_S1x40_1 ![0, 1] rfl bcast_S1x40_S100000x40_0_1,
    ← dotGeneral_plain_eq (M := 100000) (K := 128) (N := 40) dot_S100000x128_S128x40_S100000x40_1_0_0_1_n_n rfl none .single _ Wl]

/-- The reference's result buffer ends at the network function of the arguments' launch contents. -/
theorem result_eq (m : (ℓ : Loc nD τ sig) → Buf (Elt Ideal) ℓ) (c : Dev nD) :
    ValueP.res_main_v70 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (term_eq m c).trans (hostNet_eq _ _ _ _ _ _ _ _)

end Cert.ReferenceIdeal.RefNet

end
-- ==== Proof.RunResult.lean ====
/-
  The idealized kernel's run with its result kept: every weakly fair execution of @main terminates, nothing faults, the
  arguments end as launched, and the result buffer ends at what the last pallas_call's write-backs leave — the end of the
  chain of buffer contents that starts at the launch memory and passes through every stretch of host operations and every
  pallas_call in turn. The frame certificate proves the same run and then keeps only the arguments; here the result
  buffer is read from the final contents as well.
-/
import proofs.«146401_j32332513804701_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunResult

end
-- ==== Proof.Stretches.lean ====
/-
  What each stretch of host operations of the kernel's @main leaves in the buffers the later steps read, as functions of
  the contents the stretch starts from. The stretches are the reference's own host operations on the graph side: the edge
  lists with self loops, the degrees, their inverse square roots where positive, every edge's normalisation, and twice
  the aggregation of a node table over the edges; beside them only the three reshapes that turn a bias vector into a row.
-/
import proofs.«146401_j32332513804701_1_alg».proof.Proof.Gen.KernelIdeal.Launch
import proofs.«146401_j32332513804701_1_alg».proof.Proof.Net
import Idealize.ShloMosaic.Lib.StableHlo.Run

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen Cert.Glue Cert.Net

variable (X : Valuation τ sig (Elt Ideal))

/-! ## The first stretch: the edge lists and the degrees -/

theorem sources : StableHlo.after (hostOps0 (F := Ideal)) X (Proc.devRef .tc main_v3) = srcOf (X (Proc.devRef .tc main_arg1)) := by
  after_results; rfl

theorem targets : StableHlo.after (hostOps0 (F := Ideal)) X (Proc.devRef .tc main_v7) = dstOf (X (Proc.devRef .tc main_arg1)) := by
  after_results; rfl

theorem degree_positive : StableHlo.after (hostOps0 (F := Ideal)) X (Proc.devRef .tc main_v13)
    = positive (degWith (dstOf (X (Proc.devRef .tc main_arg1)))) := by
  after_results; rfl

theorem degree_rsqrt : StableHlo.after (hostOps0 (F := Ideal)) X (Proc.devRef .tc main_v14)
    = Host.rsqrt (degWith (dstOf (X (Proc.devRef .tc main_arg1)))) := by
  after_results; rfl

theorem zero_scalar : StableHlo.after (hostOps0 (F := Ideal)) X (Proc.devRef .tc main_cst_2) = constant (F := Ideal) S_ .f32 0x00000000#32 := by
  after_results

/-! ## The second stretch: the scale of every node -/

theorem scale : StableHlo.after (hostOps0_1 (F := Ideal)) X (Proc.devRef .tc main_v15)
    = whereElse (X (Proc.devRef .tc main_v13)) (X (Proc.devRef .tc main_v14)) (X (Proc.devRef .tc main_cst_2)) := by
  after_results; rfl

/-! ## The third stretch: every edge's normalisation -/

theorem norm : StableHlo.after (hostOps0_2 (F := Ideal)) X (Proc.devRef .tc main_v30)
    = normWith (X (Proc.devRef .tc main_v15)) (X (Proc.devRef .tc main_v3)) (X (Proc.devRef .tc main_v7)) := by
  after_results_simp <;> rfl

/-! ## Between the first two pallas_calls: the first aggregation and the first bias row -/

theorem aggregate1 : StableHlo.after (hostOps1 (F := Ideal)) X (Proc.devRef .tc main_v44)
    = aggrWith (X (Proc.devRef .tc main_v31)) (X (Proc.devRef .tc main_v3)) (X (Proc.devRef .tc main_v7)) (X (Proc.devRef .tc main_v30)) := by
  after_results_simp <;> rfl

theorem bias_row1 : StableHlo.after (hostOps1 (F := Ideal)) X (Proc.devRef .tc main_v45) = rowOf128 (X (Proc.devRef .tc main_arg3)) := by
  after_results; rfl

/-! ## Between the third and fourth pallas_calls: the second aggregation and the second bias row -/

theorem aggregate2 : StableHlo.after (hostOps3 (F := Ideal)) X (Proc.devRef .tc main_v60)
    = aggrWith (X (Proc.devRef .tc main_v47)) (X (Proc.devRef .tc main_v3)) (X (Proc.devRef .tc main_v7)) (X (Proc.devRef .tc main_v30)) := by
  after_results_simp <;> rfl

theorem bias_row2 : StableHlo.after (hostOps3 (F := Ideal)) X (Proc.devRef .tc main_v61) = rowOf128 (X (Proc.devRef .tc main_arg5)) := by
  after_results; rfl

/-! ## Before the last pallas_call: the last bias row -/

theorem bias_row3 : StableHlo.after (hostOps4 (F := Ideal)) X (Proc.devRef .tc main_v63) = rowOf40 (X (Proc.devRef .tc main_arg7)) := by
  after_results; rfl

end Cert.KernelIdeal.Stretches

end
-- ==== Proof.Product1.lean ====
/-
  The first matrix product, X · W1, as the array the first pallas_call leaves.

  The call walks the 100000 rows of X in ten blocks of 10000 rows. At each block its body multiplies the block by the
  whole 128×128 weight matrix, into a zero accumulator; the conversions to bf16 around the product are the identity on the
  extended reals. Row r of block t is row t·10000 + r of X, and an entry of a matrix product depends only on the row of
  the left factor it sits in, so what block t writes back is block t of the whole product X · W1. The ten blocks tile the
  result, which therefore ends as X · W1 entry by entry.
-/
import proofs.«146401_j32332513804701_1_alg».proof.Proof.Gen.KernelIdeal.Frame
import proofs.«146401_j32332513804701_1_alg».proof.Proof.LibDotGeneralPlain
import Idealize.ShloMosaic.Lib.Pipeline.Value
import Idealize.ShloMosaic.Lib.ValueIdx

set_option maxRecDepth 16384

noncomputable section

open scoped BigOperators

namespace Cert.KernelIdeal.Product1

open Idealize.ShloMosaic Idealize.ShloMosaic.TcCoe Idealize.ShloMosaic.ValueIdx Idealize.SL.Sem
open Cert.KernelIdeal Cert.KernelIdeal.Gen Cert.LibMatmulPlain Cert.LibDotGeneralPlain
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's value at row r, column q of a block: the sum over k of the row block's (r, k) times the weight's (k, q). -/
theorem body_entry (x0 : Vec Ideal S10000x128 .f32) (x1 : Vec Ideal S128x128 .f32) (r : Fin 10000) (q : Fin 128) :
    k0_pay1 (F := Ideal) x0 x1 (ix2 r q) = ∑ k : Fin 128, x0 (ix2 r k) * x1 (ix2 k q) := by
  unfold k0_pay1
  exact matmul_plain_zero_apply (M := 10000) (K := 128) (N := 128) dot_S10000x128_S128x128_S10000x128_1_0_0_1_n_n rfl none _ _ r q

/-- Where the blocks sit: the row block and the result block move together down the rows, the weight block never moves. -/
theorem block_places : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the whole product. -/
theorem written (c : Dev nD) (t : Fin cfg0.N) :
    (dat0 (F := Ideal) V c).flushed 2 t
      = ((cfg0.win 2).blk t).view.read (Elt Ideal) (matProd (M := 100000) (K := 128) (N := 128) (V c main_arg0) (V c main_arg2)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  obtain ⟨e0, e1, e2, e3, e4, e5⟩ := block_places t
  funext j
  obtain ⟨r, q, rfl⟩ : ∃ (r : Fin 10000) (q : Fin 128), j = ix2 r q := ⟨j 0, j 1, eq_ix2 j⟩
  have ht : t.val < 10 := Nat.lt_of_lt_of_eq t.isLt N_0
  have hrow : t.val * 10000 + r.val < 100000 := by have := r.isLt; omega
  refine (body_entry _ _ r q).trans ?_
  have hout : ((cfg0.win 2).blk t).view.emb (ix2 r q) = ix2 (⟨t.val * 10000 + r.val, hrow⟩ : Fin 100000) q := by
    funext a; apply Fin.ext
    match a with
    | ⟨0, _⟩ => show win0_2.index t (0 : Fin 2) * 10000 + 1 * r.val = t.val * 10000 + r.val; omega
    | ⟨1, _⟩ => show win0_2.index t (1 : Fin 2) * 128 + 1 * q.val = q.val; omega
  show _ = matProd (V c main_arg0) (V c main_arg2) (((cfg0.win 2).blk t).view.emb (ix2 r q))
  rw [hout, matProd_apply]
  refine Finset.sum_congr rfl fun k _ => ?_
  have hx : ((cfg0.win 0).blk t).view.emb (ix2 r k) = ix2 (⟨t.val * 10000 + r.val, hrow⟩ : Fin 100000) k := by
    funext a; apply Fin.ext
    match a with
    | ⟨0, _⟩ => show win0_0.index t (0 : Fin 2) * 10000 + 1 * r.val = t.val * 10000 + r.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hx' : iblk0 V c 0 t (ix2 r k) = V c main_arg0 (ix2 (⟨t.val * 10000 + r.val, hrow⟩ : Fin 100000) k) := by
    show V c main_arg0 (((cfg0.win 0).blk t).view.emb (ix2 r k)) = _
    rw [hx]
  have hw' : iblk0 V c 1 t (ix2 k q) = V c main_arg2 (ix2 k q) := by
    show V c main_arg2 (((cfg0.win 1).blk t).view.emb (ix2 k q)) = _
    rw [hw]
  rw [hx', hw']

/-- An index of the result is in point t's block iff each coordinate is in the block's range on its axis. -/
theorem in_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row i of the result lies in the block of point i / 10000: the ten blocks tile the rows. -/
theorem tiled (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := Nat.lt_of_lt_of_eq (by omega : (i 0).val / 10000 < 10) N_0.symm
  obtain ⟨e0, e1, e2, e3, e4, e5⟩ := block_places ⟨(i 0).val / 10000, hN⟩
  refine ⟨⟨(i 0).val / 10000, hN⟩, flush0_2 _, ?_⟩
  rw [in_block]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e4]; omega

/-- After the call the result array is the whole product of the arrays the call found. -/
theorem result (c : Dev nD) :
    (dat0 (F := Ideal) V c).arrAt 2 cfg0.N = matProd (M := 100000) (K := 128) (N := 128) (V c main_arg0) (V c main_arg2) :=
  (dat0 V c).arrAt_eq_of_cover 2 _ (fun t _ => written V c t) (fun i => tiled i)

end Cert.KernelIdeal.Product1

end
-- ==== Proof.Product2.lean ====
/-
  The second matrix product, H1 · W2, as the array the third pallas_call leaves.

  The call walks the 100000 rows of the first layer's output H1 in ten blocks of 10000 rows. At each block its body multiplies the block by the
  whole 128×128 weight matrix, into a zero accumulator; the conversions to bf16 around the product are the identity on the
  extended reals. Row r of block t is row t·10000 + r of H1, and an entry of a matrix product depends only on the row of
  the left factor it sits in, so what block t writes back is block t of the whole product H1 · W2. The ten blocks tile the
  result, which therefore ends as H1 · W2 entry by entry.
-/
import proofs.«146401_j32332513804701_1_alg».proof.Proof.Gen.KernelIdeal.Frame
import proofs.«146401_j32332513804701_1_alg».proof.Proof.LibDotGeneralPlain
import Idealize.ShloMosaic.Lib.Pipeline.Value
import Idealize.ShloMosaic.Lib.ValueIdx

set_option maxRecDepth 16384

noncomputable section

open scoped BigOperators

namespace Cert.KernelIdeal.Product2

open Idealize.ShloMosaic Idealize.ShloMosaic.TcCoe Idealize.ShloMosaic.ValueIdx Idealize.SL.Sem
open Cert.KernelIdeal Cert.KernelIdeal.Gen Cert.LibMatmulPlain Cert.LibDotGeneralPlain
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's value at row r, column q of a block: the sum over k of the row block's (r, k) times the weight's (k, q). -/
theorem body_entry (x0 : Vec Ideal S10000x128 .f32) (x1 : Vec Ideal S128x128 .f32) (r : Fin 10000) (q : Fin 128) :
    k2_pay1 (F := Ideal) x0 x1 (ix2 r q) = ∑ k : Fin 128, x0 (ix2 r k) * x1 (ix2 k q) := by
  unfold k2_pay1
  rw [shapeCast_self]
  exact matmul_plain_zero_apply (M := 10000) (K := 128) (N := 128) dot_S10000x128_S128x128_S10000x128_1_0_0_1_n_n rfl none _ _ r q

/-- Where the blocks sit: the row block and the result block move together down the rows, the weight block never moves. -/
theorem block_places : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is block t of the whole product. -/
theorem written (c : Dev nD) (t : Fin cfg2.N) :
    (dat2 (F := Ideal) V c).flushed 2 t
      = ((cfg2.win 2).blk t).view.read (Elt Ideal) (matProd (M := 100000) (K := 128) (N := 128) (V c main_v46) (V c main_arg4)) := by
  show (cfg2.win 2).cut (grid2.coords t) ((dat2 V c).after 2 t) = _
  rw [after2_2]
  unfold out2_2
  rw [View.canon_unit_zero zeros2]
  simp only [View.ld_unit_zero (S := S10000x128) zeros2, View.ld_unit_zero (S := S128x128) zeros2]
  obtain ⟨e0, e1, e2, e3, e4, e5⟩ := block_places t
  funext j
  obtain ⟨r, q, rfl⟩ : ∃ (r : Fin 10000) (q : Fin 128), j = ix2 r q := ⟨j 0, j 1, eq_ix2 j⟩
  have ht : t.val < 10 := Nat.lt_of_lt_of_eq t.isLt N_2
  have hrow : t.val * 10000 + r.val < 100000 := by have := r.isLt; omega
  refine (body_entry _ _ r q).trans ?_
  have hout : ((cfg2.win 2).blk t).view.emb (ix2 r q) = ix2 (⟨t.val * 10000 + r.val, hrow⟩ : Fin 100000) q := by
    funext a; apply Fin.ext
    match a with
    | ⟨0, _⟩ => show win2_2.index t (0 : Fin 2) * 10000 + 1 * r.val = t.val * 10000 + r.val; omega
    | ⟨1, _⟩ => show win2_2.index t (1 : Fin 2) * 128 + 1 * q.val = q.val; omega
  show _ = matProd (V c main_v46) (V c main_arg4) (((cfg2.win 2).blk t).view.emb (ix2 r q))
  rw [hout, matProd_apply]
  refine Finset.sum_congr rfl fun k _ => ?_
  have hx : ((cfg2.win 0).blk t).view.emb (ix2 r k) = ix2 (⟨t.val * 10000 + r.val, hrow⟩ : Fin 100000) k := by
    funext a; apply Fin.ext
    match a with
    | ⟨0, _⟩ => show win2_0.index t (0 : Fin 2) * 10000 + 1 * r.val = t.val * 10000 + r.val; omega
    | ⟨1, _⟩ => show win2_0.index t (1 : Fin 2) * 128 + 1 * k.val = k.val; omega
  have hw : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hx' : iblk2 V c 0 t (ix2 r k) = V c main_v46 (ix2 (⟨t.val * 10000 + r.val, hrow⟩ : Fin 100000) k) := by
    show V c main_v46 (((cfg2.win 0).blk t).view.emb (ix2 r k)) = _
    rw [hx]
  have hw' : iblk2 V c 1 t (ix2 k q) = V c main_arg4 (ix2 k q) := by
    show V c main_arg4 (((cfg2.win 1).blk t).view.emb (ix2 k q)) = _
    rw [hw]
  rw [hx', hw']

/-- An index of the result is in point t's block iff each coordinate is in the block's range on its axis. -/
theorem in_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- Row i of the result lies in the block of point i / 10000: the ten blocks tile the rows. -/
theorem tiled (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < cfg2.N := Nat.lt_of_lt_of_eq (by omega : (i 0).val / 10000 < 10) N_2.symm
  obtain ⟨e0, e1, e2, e3, e4, e5⟩ := block_places ⟨(i 0).val / 10000, hN⟩
  refine ⟨⟨(i 0).val / 10000, hN⟩, flush2_2 _, ?_⟩
  rw [in_block]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win2_2.index ⟨(i 0).val / 10000, hN⟩ (1 : Fin 2) * 128 ≤ (i 1).val ∧ (i 1).val < win2_2.index ⟨(i 0).val / 10000, hN⟩ (1 : Fin 2) * 128 + 128
    rw [e4]; omega

/-- After the call the result array is the whole product of the arrays the call found. -/
theorem result (c : Dev nD) :
    (dat2 (F := Ideal) V c).arrAt 2 cfg2.N = matProd (M := 100000) (K := 128) (N := 128) (V c main_v46) (V c main_arg4) :=
  (dat2 V c).arrAt_eq_of_cover 2 _ (fun t _ => written V c t) (fun i => tiled i)

end Cert.KernelIdeal.Product2

end
-- ==== Proof.Epilogue1.lean ====
/-
  The first layer's epilogue, max(A + b1, 0), as the array the second pallas_call leaves.

  The call walks the 100000 rows of the aggregated matrix A in ten blocks of 10000 rows; the bias is one row [1, 128] that
  every block sees whole. Its body adds the bias row to every row of the block and takes each entry's maximum with zero
  (the shape casts in between change nothing). Entry (r, q) of block t is entry (t·10000 + r, q) of A, and the epilogue
  works entry by entry, so block t written back is block t of max(A + b1, 0) on the whole array; the ten blocks tile it.
-/
import proofs.«146401_j32332513804701_1_alg».proof.Proof.Gen.KernelIdeal.Frame
import proofs.«146401_j32332513804701_1_alg».proof.Proof.LibRowEpilogue
import Idealize.ShloMosaic.Lib.Pipeline.Value
import Idealize.ShloMosaic.Lib.ValueIdx
import Idealize.ShloMosaic.Lib.ValueLayout

set_option maxRecDepth 16384

noncomputable section

namespace Cert.KernelIdeal.Epilogue1

open Idealize.ShloMosaic Idealize.ShloMosaic.TcCoe Idealize.ShloMosaic.ValueIdx Idealize.SL.Sem
open Cert.KernelIdeal Cert.KernelIdeal.Gen Cert.LibRowEpilogue
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's value at row r, column q of a block: the block's entry plus the bias row's entry q, cut at zero. -/
theorem body_entry (x0 : Vec Ideal S10000x128 .f32) (x1 : Vec Ideal S1x128 .f32) (r : Fin 10000) (q : Fin 128) :
    k1_pay1 (F := Ideal) x0 x1 (ix2 r q)
      = FloatOps.maximumf (FloatOps.addf (x0 (ix2 r q)) (x1 (ix2 (0 : Fin 1) q))) (FloatOps.ofBits .f32 0x00000000#32) := by
  unfold k1_pay1
  rw [shapeCast_self, shapeCast_self]
  unfold maximumf addf broadcast
  rw [broadcastTo_1b_ab_apply]

/-- Where the blocks sit: the input block and the result block move together down the rows, the bias row never moves. -/
theorem block_places : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point t writes back is block t of the epilogue of the whole array. -/
theorem written (c : Dev nD) (t : Fin cfg1.N) :
    (dat1 (F := Ideal) V c).flushed 2 t
      = ((cfg1.win 2).blk t).view.read (Elt Ideal) (reluAddRow (F := Ideal) (n := 100000) (d := 128) (V c main_v44) (V c main_v45)) := by
  show (cfg1.win 2).cut (grid1.coords t) ((dat1 V c).after 2 t) = _
  rw [after1_2]
  unfold out1_2
  rw [View.canon_unit_zero zeros2]
  simp only [View.ld_unit_zero (S := S10000x128) zeros2, View.ld_unit_zero (S := S1x128) zeros2]
  obtain ⟨e0, e1, e2, e3, e4, e5⟩ := block_places t
  funext j
  obtain ⟨r, q, rfl⟩ : ∃ (r : Fin 10000) (q : Fin 128), j = ix2 r q := ⟨j 0, j 1, eq_ix2 j⟩
  have ht : t.val < 10 := Nat.lt_of_lt_of_eq t.isLt N_1
  have hrow : t.val * 10000 + r.val < 100000 := by have := r.isLt; omega
  refine (body_entry _ _ r q).trans ?_
  have hout : ((cfg1.win 2).blk t).view.emb (ix2 r q) = ix2 (⟨t.val * 10000 + r.val, hrow⟩ : Fin 100000) q := by
    funext a; apply Fin.ext
    match a with
    | ⟨0, _⟩ => show win1_2.index t (0 : Fin 2) * 10000 + 1 * r.val = t.val * 10000 + r.val; omega
    | ⟨1, _⟩ => show win1_2.index t (1 : Fin 2) * 128 + 1 * q.val = q.val; omega
  show _ = reluAddRow (F := Ideal) (n := 100000) (d := 128) (V c main_v44) (V c main_v45) (((cfg1.win 2).blk t).view.emb (ix2 r q))
  rw [hout]
  show _ = FloatOps.maximumf (F := Ideal) (φ := .f32) (FloatOps.addf (V c main_v44 (ix2 (⟨t.val * 10000 + r.val, hrow⟩ : Fin 100000) q)) (V c main_v45 (ix2 (0 : Fin 1) q))) (FloatOps.ofBits .f32 0x00000000#32)
  have hx : ((cfg1.win 0).blk t).view.emb (ix2 r q) = ix2 (⟨t.val * 10000 + r.val, hrow⟩ : Fin 100000) q := by
    funext a; apply Fin.ext
    match a with
    | ⟨0, _⟩ => show win1_0.index t (0 : Fin 2) * 10000 + 1 * r.val = t.val * 10000 + r.val; omega
    | ⟨1, _⟩ => show win1_0.index t (1 : Fin 2) * 128 + 1 * q.val = q.val; omega
  have hb : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hx' : iblk1 V c 0 t (ix2 r q) = V c main_v44 (ix2 (⟨t.val * 10000 + r.val, hrow⟩ : Fin 100000) q) := by
    show V c main_v44 (((cfg1.win 0).blk t).view.emb (ix2 r q)) = _
    rw [hx]
  have hb' : iblk1 V c 1 t (ix2 (0 : Fin 1) q) = V c main_v45 (ix2 (0 : Fin 1) q) := by
    show V c main_v45 (((cfg1.win 1).blk t).view.emb (ix2 (0 : Fin 1) q)) = _
    rw [hb]
  rw [hx', hb']

/-- An index of the result is in point t's block iff each coordinate is in the block's range on its axis. -/
theorem in_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Row i of the result lies in the block of point i / 10000: the ten blocks tile the rows. -/
theorem tiled (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := Nat.lt_of_lt_of_eq (by omega : (i 0).val / 10000 < 10) N_1.symm
  obtain ⟨e0, e1, e2, e3, e4, e5⟩ := block_places ⟨(i 0).val / 10000, hN⟩
  refine ⟨⟨(i 0).val / 10000, hN⟩, flush1_2 _, ?_⟩
  rw [in_block]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    rw [e4]; omega

/-- After the call the result array is the epilogue of the arrays the call found. -/
theorem result (c : Dev nD) :
    (dat1 (F := Ideal) V c).arrAt 2 cfg1.N = reluAddRow (F := Ideal) (n := 100000) (d := 128) (V c main_v44) (V c main_v45) :=
  (dat1 V c).arrAt_eq_of_cover 2 _ (fun t _ => written V c t) (fun i => tiled i)

end Cert.KernelIdeal.Epilogue1

end
-- ==== Proof.Epilogue2.lean ====
/-
  The second layer's epilogue, max(A + b2, 0), as the array the fourth pallas_call leaves.

  The call walks the 100000 rows of the aggregated matrix A in ten blocks of 10000 rows; the bias is one row [1, 128] that
  every block sees whole. Its body adds the bias row to every row of the block and takes each entry's maximum with zero
  (the shape casts in between change nothing). Entry (r, q) of block t is entry (t·10000 + r, q) of A, and the epilogue
  works entry by entry, so block t written back is block t of max(A + b2, 0) on the whole array; the ten blocks tile it.
-/
import proofs.«146401_j32332513804701_1_alg».proof.Proof.Gen.KernelIdeal.Frame
import proofs.«146401_j32332513804701_1_alg».proof.Proof.LibRowEpilogue
import Idealize.ShloMosaic.Lib.Pipeline.Value
import Idealize.ShloMosaic.Lib.ValueIdx
import Idealize.ShloMosaic.Lib.ValueLayout

set_option maxRecDepth 16384

noncomputable section

namespace Cert.KernelIdeal.Epilogue2

open Idealize.ShloMosaic Idealize.ShloMosaic.TcCoe Idealize.ShloMosaic.ValueIdx Idealize.SL.Sem
open Cert.KernelIdeal Cert.KernelIdeal.Gen Cert.LibRowEpilogue
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's value at row r, column q of a block: the block's entry plus the bias row's entry q, cut at zero. -/
theorem body_entry (x0 : Vec Ideal S10000x128 .f32) (x1 : Vec Ideal S1x128 .f32) (r : Fin 10000) (q : Fin 128) :
    k3_pay1 (F := Ideal) x0 x1 (ix2 r q)
      = FloatOps.maximumf (FloatOps.addf (x0 (ix2 r q)) (x1 (ix2 (0 : Fin 1) q))) (FloatOps.ofBits .f32 0x00000000#32) := by
  unfold k3_pay1
  rw [shapeCast_self, shapeCast_self]
  unfold maximumf addf broadcast
  rw [broadcastTo_1b_ab_apply]

/-- Where the blocks sit: the input block and the result block move together down the rows, the bias row never moves. -/
theorem block_places : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point t writes back is block t of the epilogue of the whole array. -/
theorem written (c : Dev nD) (t : Fin cfg3.N) :
    (dat3 (F := Ideal) V c).flushed 2 t
      = ((cfg3.win 2).blk t).view.read (Elt Ideal) (reluAddRow (F := Ideal) (n := 100000) (d := 128) (V c main_v60) (V c main_v61)) := by
  show (cfg3.win 2).cut (grid3.coords t) ((dat3 V c).after 2 t) = _
  rw [after3_2]
  unfold out3_2
  rw [View.canon_unit_zero zeros2]
  simp only [View.ld_unit_zero (S := S10000x128) zeros2, View.ld_unit_zero (S := S1x128) zeros2]
  obtain ⟨e0, e1, e2, e3, e4, e5⟩ := block_places t
  funext j
  obtain ⟨r, q, rfl⟩ : ∃ (r : Fin 10000) (q : Fin 128), j = ix2 r q := ⟨j 0, j 1, eq_ix2 j⟩
  have ht : t.val < 10 := Nat.lt_of_lt_of_eq t.isLt N_3
  have hrow : t.val * 10000 + r.val < 100000 := by have := r.isLt; omega
  refine (body_entry _ _ r q).trans ?_
  have hout : ((cfg3.win 2).blk t).view.emb (ix2 r q) = ix2 (⟨t.val * 10000 + r.val, hrow⟩ : Fin 100000) q := by
    funext a; apply Fin.ext
    match a with
    | ⟨0, _⟩ => show win3_2.index t (0 : Fin 2) * 10000 + 1 * r.val = t.val * 10000 + r.val; omega
    | ⟨1, _⟩ => show win3_2.index t (1 : Fin 2) * 128 + 1 * q.val = q.val; omega
  show _ = reluAddRow (F := Ideal) (n := 100000) (d := 128) (V c main_v60) (V c main_v61) (((cfg3.win 2).blk t).view.emb (ix2 r q))
  rw [hout]
  show _ = FloatOps.maximumf (F := Ideal) (φ := .f32) (FloatOps.addf (V c main_v60 (ix2 (⟨t.val * 10000 + r.val, hrow⟩ : Fin 100000) q)) (V c main_v61 (ix2 (0 : Fin 1) q))) (FloatOps.ofBits .f32 0x00000000#32)
  have hx : ((cfg3.win 0).blk t).view.emb (ix2 r q) = ix2 (⟨t.val * 10000 + r.val, hrow⟩ : Fin 100000) q := by
    funext a; apply Fin.ext
    match a with
    | ⟨0, _⟩ => show win3_0.index t (0 : Fin 2) * 10000 + 1 * r.val = t.val * 10000 + r.val; omega
    | ⟨1, _⟩ => show win3_0.index t (1 : Fin 2) * 128 + 1 * q.val = q.val; omega
  have hb : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have hx' : iblk3 V c 0 t (ix2 r q) = V c main_v60 (ix2 (⟨t.val * 10000 + r.val, hrow⟩ : Fin 100000) q) := by
    show V c main_v60 (((cfg3.win 0).blk t).view.emb (ix2 r q)) = _
    rw [hx]
  have hb' : iblk3 V c 1 t (ix2 (0 : Fin 1) q) = V c main_v61 (ix2 (0 : Fin 1) q) := by
    show V c main_v61 (((cfg3.win 1).blk t).view.emb (ix2 (0 : Fin 1) q)) = _
    rw [hb]
  rw [hx', hb']

/-- An index of the result is in point t's block iff each coordinate is in the block's range on its axis. -/
theorem in_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v62).slice (win3_2.rect t)).set ↔ _
  rw [View.set_slice_whole, Rect.mem_set_unit]
  exact Iff.rfl

/-- Row i of the result lies in the block of point i / 10000: the ten blocks tile the rows. -/
theorem tiled (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : (i 0).val / 10000 < cfg3.N := Nat.lt_of_lt_of_eq (by omega : (i 0).val / 10000 < 10) N_3.symm
  obtain ⟨e0, e1, e2, e3, e4, e5⟩ := block_places ⟨(i 0).val / 10000, hN⟩
  refine ⟨⟨(i 0).val / 10000, hN⟩, flush3_2 _, ?_⟩
  rw [in_block]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win3_2.index ⟨(i 0).val / 10000, hN⟩ (1 : Fin 2) * 128 ≤ (i 1).val ∧ (i 1).val < win3_2.index ⟨(i 0).val / 10000, hN⟩ (1 : Fin 2) * 128 + 128
    rw [e4]; omega

/-- After the call the result array is the epilogue of the arrays the call found. -/
theorem result (c : Dev nD) :
    (dat3 (F := Ideal) V c).arrAt 2 cfg3.N = reluAddRow (F := Ideal) (n := 100000) (d := 128) (V c main_v60) (V c main_v61) :=
  (dat3 V c).arrAt_eq_of_cover 2 _ (fun t _ => written V c t) (fun i => tiled i)

end Cert.KernelIdeal.Epilogue2

end
-- ==== Proof.Head.lean ====
/-
  The final product with its bias, H2 · Wl + bl, as the array the fifth pallas_call leaves.

  The call walks the 100000 rows of the second layer's output H2 in ten blocks of 10000 rows; the 128×40 weight matrix and
  the bias row [1, 40] are seen whole by every block. Its body multiplies the block by the weights into a zero accumulator
  (the conversions to bf16 are the identity on the extended reals) and adds the bias row to every row. Row r of block t is
  row t·10000 + r of H2, an entry of the product depends only on its row of the left factor, and the bias is added entry
  by entry, so block t written back is block t of H2 · Wl + bl; the ten blocks tile the result.
-/
import proofs.«146401_j32332513804701_1_alg».proof.Proof.Gen.KernelIdeal.Frame
import proofs.«146401_j32332513804701_1_alg».proof.Proof.LibDotGeneralPlain
import proofs.«146401_j32332513804701_1_alg».proof.Proof.LibRowEpilogue
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Head

open Idealize.ShloMosaic Idealize.ShloMosaic.TcCoe Idealize.ShloMosaic.ValueIdx Idealize.SL.Sem
open Cert.KernelIdeal Cert.KernelIdeal.Gen Cert.LibMatmulPlain Cert.LibDotGeneralPlain Cert.LibRowEpilogue
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's value at row r, column q of a block: the sum over k of the row block's (r, k) times the weight's (k, q),
    plus the bias row's entry q. -/
theorem body_entry (x0 : Vec Ideal S10000x128 .f32) (x1 : Vec Ideal S128x40 .f32) (x2 : Vec Ideal S1x40 .f32) (r : Fin 10000) (q : Fin 40) :
    k4_pay1 (F := Ideal) x0 x1 x2 (ix2 r q)
      = FloatOps.addf (F := Ideal) (φ := .f32) (∑ k : Fin 128, x0 (ix2 r k) * x1 (ix2 k q)) (x2 (ix2 (0 : Fin 1) q)) := by
  unfold k4_pay1
  rw [shapeCast_self, shapeCast_self]
  unfold addf
  rw [broadcastTo_1b_ab_apply]
  exact congrArg (fun z => FloatOps.addf (F := Ideal) (φ := .f32) z (x2 (ix2 (0 : Fin 1) q)))
    (matmul_plain_zero_apply (M := 10000) (K := 128) (N := 40) dot_S10000x128_S128x40_S10000x40_1_0_0_1_n_n rfl none _ _ r q)

/-- Where the blocks sit: the row block and the result block move together down the rows; the weights and the bias row
    never move. -/
theorem block_places : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) = t.val :=
  (by decide +kernel : ∀ t : Fin grid4.N, _)

/-- What point t writes back is block t of the whole product with the bias row added. -/
theorem written (c : Dev nD) (t : Fin cfg4.N) :
    (dat4 (F := Ideal) V c).flushed 3 t
      = ((cfg4.win 3).blk t).view.read (Elt Ideal)
          (addRow (F := Ideal) (n := 100000) (d := 40) (matProd (M := 100000) (K := 128) (N := 40) (V c main_v62) (V c main_arg6)) (V c main_v63)) := by
  show (cfg4.win 3).cut (grid4.coords t) ((dat4 V c).after 3 t) = _
  rw [after4_3]
  unfold out4_3
  rw [View.canon_unit_zero zeros2]
  simp only [View.ld_unit_zero (S := S10000x128) zeros2, View.ld_unit_zero (S := S128x40) zeros2, View.ld_unit_zero (S := S1x40) zeros2]
  obtain ⟨e0, e1, e2, e3, e4, e5, e6, e7⟩ := block_places t
  funext j
  obtain ⟨r, q, rfl⟩ : ∃ (r : Fin 10000) (q : Fin 40), j = ix2 r q := ⟨j 0, j 1, eq_ix2 j⟩
  have ht : t.val < 10 := Nat.lt_of_lt_of_eq t.isLt N_4
  have hrow : t.val * 10000 + r.val < 100000 := by have := r.isLt; omega
  refine (body_entry _ _ _ r q).trans ?_
  have hout : ((cfg4.win 3).blk t).view.emb (ix2 r q) = ix2 (⟨t.val * 10000 + r.val, hrow⟩ : Fin 100000) q := by
    funext a; apply Fin.ext
    match a with
    | ⟨0, _⟩ => show win4_3.index t (0 : Fin 2) * 10000 + 1 * r.val = t.val * 10000 + r.val; omega
    | ⟨1, _⟩ => show win4_3.index t (1 : Fin 2) * 40 + 1 * q.val = q.val; omega
  show _ = addRow (F := Ideal) (n := 100000) (d := 40) (matProd (M := 100000) (K := 128) (N := 40) (V c main_v62) (V c main_arg6)) (V c main_v63) (((cfg4.win 3).blk t).view.emb (ix2 r q))
  rw [hout, addRow_apply, matProd_apply]
  have hb : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 40 + 1 * q.val = q.val; omega
  have hb' : iblk4 V c 2 t (ix2 (0 : Fin 1) q) = V c main_v63 (ix2 (0 : Fin 1) q) := by
    show V c main_v63 (((cfg4.win 2).blk t).view.emb (ix2 (0 : Fin 1) q)) = _
    rw [hb]
  rw [hb']
  refine congrArg (fun z => FloatOps.addf (F := Ideal) (φ := .f32) z (V c main_v63 (ix2 (0 : Fin 1) q))) ?_
  refine Finset.sum_congr rfl fun k _ => ?_
  have hx : ((cfg4.win 0).blk t).view.emb (ix2 r k) = ix2 (⟨t.val * 10000 + r.val, hrow⟩ : Fin 100000) k := by
    funext a; apply Fin.ext
    match a with
    | ⟨0, _⟩ => show win4_0.index t (0 : Fin 2) * 10000 + 1 * r.val = t.val * 10000 + r.val; omega
    | ⟨1, _⟩ => show win4_0.index t (1 : Fin 2) * 128 + 1 * k.val = k.val; omega
  have hw : ((cfg4.win 1).blk t).view.emb (ix2 k q) = ix2 k q := by
    funext a; apply Fin.ext
    match a with
    | ⟨0, _⟩ => show win4_1.index t (0 : Fin 2) * 128 + 1 * k.val = k.val; omega
    | ⟨1, _⟩ => show win4_1.index t (1 : Fin 2) * 40 + 1 * q.val = q.val; omega
  have hx' : iblk4 V c 0 t (ix2 r k) = V c main_v62 (ix2 (⟨t.val * 10000 + r.val, hrow⟩ : Fin 100000) k) := by
    show V c main_v62 (((cfg4.win 0).blk t).view.emb (ix2 r k)) = _
    rw [hx]
  have hw' : iblk4 V c 1 t (ix2 k q) = V c main_arg6 (ix2 k q) := by
    show V c main_arg6 (((cfg4.win 1).blk t).view.emb (ix2 k q)) = _
    rw [hw]
  rw [hx', hw']

/-- An index of the result is in point t's block iff each coordinate is in the block's range on its axis. -/
theorem in_block (t : Fin cfg4.N) (i : S100000x40.Idx) :
    i ∈ ((cfg4.win 3).blk t).view.set ↔ ∀ a : Fin 2, win4_3.index t a * S10000x40.size a ≤ (i a).val ∧ (i a).val < win4_3.index t a * S10000x40.size a + S10000x40.size a := by
  show i ∈ ((View.whole main_v64).slice (win4_3.rect t)).set ↔ _
  rw [View.set_slice_whole, Rect.mem_set_unit]
  exact Iff.rfl

/-- Row i of the result lies in the block of point i / 10000: the ten blocks tile the rows. -/
theorem tiled (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  have hN : (i 0).val / 10000 < cfg4.N := Nat.lt_of_lt_of_eq (by omega : (i 0).val / 10000 < 10) N_4.symm
  obtain ⟨e0, e1, e2, e3, e4, e5, e6, e7⟩ := block_places ⟨(i 0).val / 10000, hN⟩
  refine ⟨⟨(i 0).val / 10000, hN⟩, flush4_3 _, ?_⟩
  rw [in_block]
  intro a
  match a with
  | ⟨0, _⟩ =>
    show win4_3.index ⟨(i 0).val / 10000, hN⟩ (0 : Fin 2) * 10000 ≤ (i 0).val ∧ (i 0).val < win4_3.index ⟨(i 0).val / 10000, hN⟩ (0 : Fin 2) * 10000 + 10000
    rw [e7]; show (i 0).val / 10000 * 10000 ≤ (i 0).val ∧ (i 0).val < (i 0).val / 10000 * 10000 + 10000; omega
  | ⟨1, _⟩ =>
    show win4_3.index ⟨(i 0).val / 10000, hN⟩ (1 : Fin 2) * 40 ≤ (i 1).val ∧ (i 1).val < win4_3.index ⟨(i 0).val / 10000, hN⟩ (1 : Fin 2) * 40 + 40
    rw [e6]; omega

/-- After the call the result array is the product of the arrays the call found, with the bias row added. -/
theorem result (c : Dev nD) :
    (dat4 (F := Ideal) V c).arrAt 3 cfg4.N
      = addRow (F := Ideal) (n := 100000) (d := 40) (matProd (M := 100000) (K := 128) (N := 40) (V c main_v62) (V c main_arg6)) (V c main_v63) :=
  (dat4 V c).arrAt_eq_of_cover 3 _ (fun t _ => written V c t) (fun i => tiled i)

end Cert.KernelIdeal.Head

end
-- ==== Proof.Chain.lean ====
/-
  The contents of the kernel's buffers at the boundaries between its stretches of host operations and its pallas_calls,
  followed from the launch memory to the result.

  No host operation and no pallas_call writes an argument, so each argument is still as launched wherever it is read. The
  edge lists, and every edge's normalisation, are computed once by the first three stretches and only read afterwards.
  The first pallas_call leaves X · W1; the next stretch aggregates it over the graph and makes the bias row; the second
  call adds the row and cuts at zero, which is the first layer's output H1; the third call leaves H1 · W2; the next
  stretch aggregates again; the fourth call gives the second layer's output H2; the last reshapes the last bias and the
  fifth call leaves H2 · Wl + bl. Read together: the result buffer ends at the network function of the arguments.
-/
import proofs.«146401_j32332513804701_1_alg».proof.Proof.Gen.KernelIdeal.Frame
import proofs.«146401_j32332513804701_1_alg».proof.Proof.Stretches
import proofs.«146401_j32332513804701_1_alg».proof.Proof.Product1
import proofs.«146401_j32332513804701_1_alg».proof.Proof.Product2
import proofs.«146401_j32332513804701_1_alg».proof.Proof.Epilogue1
import proofs.«146401_j32332513804701_1_alg».proof.Proof.Epilogue2
import proofs.«146401_j32332513804701_1_alg».proof.Proof.Head
import proofs.«146401_j32332513804701_1_alg».proof.Proof.Net

set_option maxRecDepth 16384

noncomputable section

namespace Cert.KernelIdeal.Chain

open Idealize.ShloMosaic Idealize.ShloMosaic.TcCoe Idealize.SL.Sem
open Cert.KernelIdeal Cert.KernelIdeal.Gen Cert.Glue Cert.Net Cert.LibDotGeneralPlain Cert.LibRowEpilogue

variable (m : (ℓ : Loc nD τ sig) → Buf (Elt Ideal) ℓ) (ρ : Dev nD → PrngReg)

/-- A stretch of host operations leaves a buffer none of its operations writes as it found it. -/
macro "host_keeps" : tactic => `(tactic|
  exact StableHlo.after_of_forall_not_mem _ _ (List.forall_iff_forall_mem.mp (by
    simp only [hostOps0, hostOps0_1, hostOps0_2, hostOps1, hostOps3, hostOps4, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The arguments where they are read -/

theorem features_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl

theorem weight1_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl

theorem bias1_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl

theorem weight2_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps
    _ = W3 m ρ c (Proc.devRef .tc main_arg4) := W4_of_ne m ρ c main_arg4 (by decide)
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl

theorem bias2_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps
    _ = W3 m ρ c (Proc.devRef .tc main_arg5) := W4_of_ne m ρ c main_arg5 (by decide)
    _ = W2 m ρ c (Proc.devRef .tc main_arg5) := by host_keeps
    _ = W1 m ρ c (Proc.devRef .tc main_arg5) := by host_keeps
    _ = W0 m ρ c (Proc.devRef .tc main_arg5) := by host_keeps
    _ = m ((c : Thread nD τ).loc main_arg5) := rfl

theorem bias3_at9 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by host_keeps
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := by host_keeps
    _ = W0 m ρ c (Proc.devRef .tc main_arg7) := by host_keeps
    _ = m ((c : Thread nD τ).loc main_arg7) := rfl

theorem weight3_at10 (c : Dev nD) : W10 m ρ c (Proc.devRef .tc main_arg6) = m ((c : Thread nD τ).loc main_arg6) :=
  calc W10 m ρ c (Proc.devRef .tc main_arg6)
    _ = W9 m ρ c (Proc.devRef .tc main_arg6) := by host_keeps
    _ = W8 m ρ c (Proc.devRef .tc main_arg6) := W9_of_ne m ρ c main_arg6 (by decide)
    _ = W7 m ρ c (Proc.devRef .tc main_arg6) := by host_keeps
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := by host_keeps
    _ = W0 m ρ c (Proc.devRef .tc main_arg6) := by host_keeps
    _ = m ((c : Thread nD τ).loc main_arg6) := rfl

/-! ## The graph: edge lists and normalisation, computed once and then only read -/

theorem sources_at2 (c : Dev nD) : W2 m ρ c (Proc.devRef .tc main_v3) = srcOf (m ((c : Thread nD τ).loc main_arg1)) :=
  calc W2 m ρ c (Proc.devRef .tc main_v3)
    _ = W1 m ρ c (Proc.devRef .tc main_v3) := by host_keeps
    _ = srcOf (m ((c : Thread nD τ).loc main_arg1)) := Stretches.sources (W0 m ρ c)

theorem targets_at2 (c : Dev nD) : W2 m ρ c (Proc.devRef .tc main_v7) = dstOf (m ((c : Thread nD τ).loc main_arg1)) :=
  calc W2 m ρ c (Proc.devRef .tc main_v7)
    _ = W1 m ρ c (Proc.devRef .tc main_v7) := by host_keeps
    _ = dstOf (m ((c : Thread nD τ).loc main_arg1)) := Stretches.targets (W0 m ρ c)

theorem scale_at2 (c : Dev nD) : W2 m ρ c (Proc.devRef .tc main_v15) = scaleOf (m ((c : Thread nD τ).loc main_arg1)) :=
  (Stretches.scale (W1 m ρ c)).trans (by
    rw [show W1 m ρ c (Proc.devRef .tc main_v13) = _ from Stretches.degree_positive (W0 m ρ c),
      show W1 m ρ c (Proc.devRef .tc main_v14) = _ from Stretches.degree_rsqrt (W0 m ρ c),
      show W1 m ρ c (Proc.devRef .tc main_cst_2) = _ from Stretches.zero_scalar (W0 m ρ c)]
    rfl)

theorem sources_at3 (c : Dev nD) : W3 m ρ c (Proc.devRef .tc main_v3) = srcOf (m ((c : Thread nD τ).loc main_arg1)) :=
  calc W3 m ρ c (Proc.devRef .tc main_v3)
    _ = W2 m ρ c (Proc.devRef .tc main_v3) := by host_keeps
    _ = srcOf (m ((c : Thread nD τ).loc main_arg1)) := sources_at2 m ρ c

theorem targets_at3 (c : Dev nD) : W3 m ρ c (Proc.devRef .tc main_v7) = dstOf (m ((c : Thread nD τ).loc main_arg1)) :=
  calc W3 m ρ c (Proc.devRef .tc main_v7)
    _ = W2 m ρ c (Proc.devRef .tc main_v7) := by host_keeps
    _ = dstOf (m ((c : Thread nD τ).loc main_arg1)) := targets_at2 m ρ c

theorem norm_at3 (c : Dev nD) : W3 m ρ c (Proc.devRef .tc main_v30) = normOf (m ((c : Thread nD τ).loc main_arg1)) :=
  (Stretches.norm (W2 m ρ c)).trans (by rw [scale_at2 m ρ c, sources_at2 m ρ c, targets_at2 m ρ c]; rfl)

theorem sources_at4 (c : Dev nD) : W4 m ρ c (Proc.devRef .tc main_v3) = srcOf (m ((c : Thread nD τ).loc main_arg1)) :=
  (W4_of_ne m ρ c main_v3 (by decide)).trans (sources_at3 m ρ c)
theorem targets_at4 (c : Dev nD) : W4 m ρ c (Proc.devRef .tc main_v7) = dstOf (m ((c : Thread nD τ).loc main_arg1)) :=
  (W4_of_ne m ρ c main_v7 (by decide)).trans (targets_at3 m ρ c)
theorem norm_at4 (c : Dev nD) : W4 m ρ c (Proc.devRef .tc main_v30) = normOf (m ((c : Thread nD τ).loc main_arg1)) :=
  (W4_of_ne m ρ c main_v30 (by decide)).trans (norm_at3 m ρ c)

theorem sources_at7 (c : Dev nD) : W7 m ρ c (Proc.devRef .tc main_v3) = srcOf (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps
    _ = srcOf (m ((c : Thread nD τ).loc main_arg1)) := sources_at4 m ρ c
theorem targets_at7 (c : Dev nD) : W7 m ρ c (Proc.devRef .tc main_v7) = dstOf (m ((c : Thread nD τ).loc main_arg1)) :=
  calc W7 m ρ c (Proc.devRef .tc main_v7)
    _ = W6 m ρ c (Proc.devRef .tc main_v7) := W7_of_ne m ρ c main_v7 (by decide)
    _ = W5 m ρ c (Proc.devRef .tc main_v7) := W6_of_ne m ρ c main_v7 (by decide)
    _ = W4 m ρ c (Proc.devRef .tc main_v7) := by host_keeps
    _ = dstOf (m ((c : Thread nD τ).loc main_arg1)) := targets_at4 m ρ c
theorem norm_at7 (c : Dev nD) : W7 m ρ c (Proc.devRef .tc main_v30) = normOf (m ((c : Thread nD τ).loc main_arg1)) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by host_keeps
    _ = normOf (m ((c : Thread nD τ).loc main_arg1)) := norm_at4 m ρ c

/-! ## The first layer -/

theorem product1 (c : Dev nD) : W4 m ρ c (Proc.devRef .tc main_v31) = matProd (M := 100000) (K := 128) (N := 128) (m ((c : Thread nD τ).loc main_arg0)) (m ((c : Thread nD τ).loc main_arg2)) :=
  (W4_arr m ρ c 2).trans ((Product1.result (V3 m ρ) c).trans
    (congrArg₂ (matProd (M := 100000) (K := 128) (N := 128)) (features_at3 m ρ c) (weight1_at3 m ρ c)))

theorem aggregate1 (c : Dev nD) : W5 m ρ c (Proc.devRef .tc main_v44)
    = aggr (matProd (M := 100000) (K := 128) (N := 128) (m ((c : Thread nD τ).loc main_arg0)) (m ((c : Thread nD τ).loc main_arg2))) (m ((c : Thread nD τ).loc main_arg1)) :=
  (Stretches.aggregate1 (W4 m ρ c)).trans (by
    rw [product1 m ρ c, sources_at4 m ρ c, targets_at4 m ρ c, norm_at4 m ρ c]; rfl)

theorem row1 (c : Dev nD) : W5 m ρ c (Proc.devRef .tc main_v45) = rowOf128 (m ((c : Thread nD τ).loc main_arg3)) :=
  (Stretches.bias_row1 (W4 m ρ c)).trans (congrArg rowOf128 (bias1_at4 m ρ c))

theorem layer1 (c : Dev nD) : W6 m ρ c (Proc.devRef .tc main_v46) = layer (m ((c : Thread nD τ).loc main_arg0)) (m ((c : Thread nD τ).loc main_arg2)) (m ((c : Thread nD τ).loc main_arg3)) (m ((c : Thread nD τ).loc main_arg1)) :=
  (W6_arr m ρ c 2).trans ((Epilogue1.result (V5 m ρ) c).trans
    (congrArg₂ (reluAddRow (F := Ideal) (n := 100000) (d := 128)) (aggregate1 m ρ c) (row1 m ρ c)))

/-! ## The second layer -/

theorem product2 (c : Dev nD) : W7 m ρ c (Proc.devRef .tc main_v47)
    = matProd (M := 100000) (K := 128) (N := 128) (layer (m ((c : Thread nD τ).loc main_arg0)) (m ((c : Thread nD τ).loc main_arg2)) (m ((c : Thread nD τ).loc main_arg3)) (m ((c : Thread nD τ).loc main_arg1))) (m ((c : Thread nD τ).loc main_arg4)) :=
  (W7_arr m ρ c 2).trans ((Product2.result (V6 m ρ) c).trans
    (congrArg₂ (matProd (M := 100000) (K := 128) (N := 128)) (layer1 m ρ c) (weight2_at6 m ρ c)))

theorem aggregate2 (c : Dev nD) : W8 m ρ c (Proc.devRef .tc main_v60)
    = aggr (matProd (M := 100000) (K := 128) (N := 128) (layer (m ((c : Thread nD τ).loc main_arg0)) (m ((c : Thread nD τ).loc main_arg2)) (m ((c : Thread nD τ).loc main_arg3)) (m ((c : Thread nD τ).loc main_arg1))) (m ((c : Thread nD τ).loc main_arg4))) (m ((c : Thread nD τ).loc main_arg1)) :=
  (Stretches.aggregate2 (W7 m ρ c)).trans (by
    rw [product2 m ρ c, sources_at7 m ρ c, targets_at7 m ρ c, norm_at7 m ρ c]; rfl)

theorem row2 (c : Dev nD) : W8 m ρ c (Proc.devRef .tc main_v61) = rowOf128 (m ((c : Thread nD τ).loc main_arg5)) :=
  (Stretches.bias_row2 (W7 m ρ c)).trans (congrArg rowOf128 (bias2_at7 m ρ c))

theorem layer2 (c : Dev nD) : W9 m ρ c (Proc.devRef .tc main_v62)
    = layer (layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1)) :=
  (W9_arr m ρ c 2).trans ((Epilogue2.result (V8 m ρ) c).trans
    (congrArg₂ (reluAddRow (F := Ideal) (n := 100000) (d := 128)) (aggregate2 m ρ c) (row2 m ρ c)))

/-! ## The last product -/

theorem layer2_at10 (c : Dev nD) : W10 m ρ c (Proc.devRef .tc main_v62)
    = layer (layer (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1)) :=
  calc W10 m ρ c (Proc.devRef .tc main_v62)
    _ = W9 m ρ c (Proc.devRef .tc main_v62) := by host_keeps
    _ = _ := layer2 m ρ c

theorem row3 (c : Dev nD) : W10 m ρ c (Proc.devRef .tc main_v63) = rowOf40 (m ((c : Thread nD τ).loc main_arg7)) :=
  (Stretches.bias_row3 (W9 m ρ c)).trans (congrArg rowOf40 (bias3_at9 m ρ c))

/-- The result buffer, at the end of the chain, holds the network function of the arguments as launched. -/
theorem result_eq (c : Dev nD) : W11 m ρ c (Proc.devRef .tc main_v64)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 3).trans ((Head.result (V10 m ρ) c).trans
    (congrArg₂ (addRow (F := Ideal) (n := 100000) (d := 40))
      (congrArg₂ (matProd (M := 100000) (K := 128) (N := 40)) (layer2_at10 m ρ c) (weight3_at10 m ρ c)) (row3 m ρ c)))

end Cert.KernelIdeal.Chain

end
-- ==== Proof.lean ====
/-
  A two-layer graph convolution network with a linear head, kernel against reference, over the extended reals.

  Both programs compute, for node features X, an edge list and weights W1, b1, W2, b2, Wl, bl,
      H1 = max(aggregate(X · W1) + b1, 0),   H2 = max(aggregate(H1 · W2) + b2, 0),   out = H2 · Wl + bl,
  where aggregate gathers every edge's source row, scales it by the edge's symmetric normalisation and adds it into the
  edge's target row (self loops added). The graph side is the same host operations in both programs. The kernel computes
  the three matrix products and the two epilogues in five pallas_calls over ten row blocks each; the reference computes
  them as whole host operations. A matrix product and a row-wise epilogue act on each row independently, so the blocks
  written back are the blocks of the whole-array results, and both programs end at one function of their arguments
  (Proof/Net.lean): the kernel's side is Proof/Chain.lean over the per-call results, the reference's Proof/RefNet.lean.
  No law of arithmetic beyond that is used, so the precondition is never opened. The three frame claims are the
  generated frame certificates and the reference's run; the idealization rewrote nothing, so it preserves trivially.
-/
import proofs.«146401_j32332513804701_1_alg».proof.Defs
import proofs.«146401_j32332513804701_1_alg».proof.Proof.Gen.Kernel
import proofs.«146401_j32332513804701_1_alg».proof.Proof.Gen.Kernel.Frame
import proofs.«146401_j32332513804701_1_alg».proof.Proof.Gen.KernelIdeal
import proofs.«146401_j32332513804701_1_alg».proof.Proof.Gen.KernelIdeal.Frame
import proofs.«146401_j32332513804701_1_alg».proof.Proof.Gen.ReferenceIdeal
import proofs.«146401_j32332513804701_1_alg».proof.Proof.Gen.Pre_finite_inputs
import proofs.«146401_j32332513804701_1_alg».proof.Proof.RefRun
import proofs.«146401_j32332513804701_1_alg».proof.Proof.RefNet
import proofs.«146401_j32332513804701_1_alg».proof.Proof.RunResult
import proofs.«146401_j32332513804701_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame certificate. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with their result at the network function of the
    arguments: the kernel by the chain of its boundary contents, the reference by its run's term. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunResult.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefNet.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
